-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x128 : Shape := ⟨3, ![512, 128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S512x128x128 : S_.BroadcastsInDim S512x128x128 (![] : Fin 0 → Fin S512x128x128.rank)
  reducesTo_S512x128x128_S_d0_1_2 : S512x128x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256 .f32) (main_arg8 : FVec F S256x1 .f32) (main_arg9 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg8
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x1 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x128x128 .f32) (main_arg1 : FVec F S512x128x128 .f32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x1 .f32) (main_arg9 : FVec F S1 .f32) : IVec S_ 1 :=
  let main_v0 : FVec F S512x128x128 .f32 := Host.absf main_arg0
  let main_cst : FVec F S_ .f32 := constant S_ .f32 0x7F800000#32
  let main_v1 : FVec F S512x128x128 .f32 := broadcastInDim S512x128x128 ![] bcast_S_S512x128x128 main_cst
  let main_v2 : IVec S512x128x128 1 := cmpf .olt main_v0 main_v1
  let main_c : IVec S_ 1 := constantI S_ 1 1#1
  let main_v3 : IVec S_ 1 := (fun x v => Host.reduce IntOp.andi x v reducesTo_S512x128x128_S_d0_1_2 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S512x128x128 : Shape := ⟨3, ![512, 128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S512x1 : Shape := ⟨2, ![512, 1]⟩
abbrev S16x128x128 : Shape := ⟨3, ![16, 128, 128]⟩
abbrev S16x1 : Shape := ⟨2, ![16, 1]⟩
abbrev S2048x128 : Shape := ⟨2, ![2048, 128]⟩
abbrev S2048x256 : Shape := ⟨2, ![2048, 256]⟩
abbrev S16x128x256 : Shape := ⟨3, ![16, 128, 256]⟩
abbrev S1x1x256 : Shape := ⟨3, ![1, 1, 256]⟩
abbrev S16x256 : Shape := ⟨2, ![16, 256]⟩
abbrev S1x256 : Shape := ⟨2, ![1, 256]⟩
abbrev S16 : Shape := ⟨1, ![16]⟩
abbrev S1x1 : Shape := ⟨2, ![1, 1]⟩
abbrev S512 : Shape := ⟨1, ![512]⟩

abbrev nBuf : Space → Nat
  | .hbm => 12
  | .vmem => 14
  | .smem => 0
  | _ => 0

abbrev bufTy : (tb : Table) → Fin (tcTables nBuf tb) → BufTy
  | .hbm, ⟨0, _⟩ => ⟨S512x128x128, .f32⟩
  | .hbm, ⟨1, _⟩ => ⟨S512x128x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S512x1, .f32⟩
  | .hbm, ⟨11, _⟩ => ⟨S512, .f32⟩
  | .local _ .vmem, ⟨0, _⟩ => ⟨S16x128x128, .f32⟩
  | .local _ .vmem, ⟨1, _⟩ => ⟨S16x128x128, .f32⟩
  | .local _ .vmem, ⟨2, _⟩ => ⟨S16x128x128, .f32⟩
  | .local _ .vmem, ⟨3, _⟩ => ⟨S16x128x128, .f32⟩
  | .local _ .vmem, ⟨4, _⟩ => ⟨S128x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x1, .f32⟩
  | .local _ .vmem, ⟨11, _⟩ => ⟨S1, .f32⟩
  | .local _ .vmem, ⟨12, _⟩ => ⟨S16x1, .f32⟩
  | .local _ .vmem, ⟨13, _⟩ => ⟨S16x1, .f32⟩
  | _, _ => ⟨S512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S16x128x128_S16x128x128_0_0_0 : ∀ a, (![0, 0, 0] : Fin 3 → Nat) a + S16x128x128.size a ≤ S16x128x128.size a
  h_S16x128x128 : 0 < S16x128x128.numel
  bitsLt_bf16_f32 : FTy.bits .bf16 < FTy.bits .f32
  shapeCasts_S16x128x128_S2048x128 : S16x128x128.ShapeCasts S2048x128
  inb_S128x256_S128x256_0_0 : ∀ a, (![0, 0] : Fin 2 → Nat) a + S128x256.size a ≤ S128x256.size a
  h_S128x256 : 0 < S128x256.numel
  shapeCasts_S2048x256_S16x128x256 : S2048x256.ShapeCasts S16x128x256
  inb_S256_S256_0 : ∀ a, (![0] : Fin 1 → Nat) a + S256.size a ≤ S256.size a
  h_S256 : 0 < S256.numel
  shapeCasts_S256_S1x1x256 : S256.ShapeCasts S1x1x256
  broadcasts_S1x1x256_S16x128x256 : S1x1x256.Broadcasts S16x128x256
  shapeCasts_S16x128x256_S2048x256 : S16x128x256.ShapeCasts S2048x256
  inb_S256x256_S256x256_0_0 : ∀ a, (![0, 0] : Fin 2 → Nat) a + S256x256.size a ≤ S256x256.size a
  h_S256x256 : 0 < S256x256.numel
  reduces_S16x128x256_S16x256 : S16x128x256.Reduces [1] S16x256
  inb_S256x1_S256x1_0_0 : ∀ a, (![0, 0] : Fin 2 → Nat) a + S256x1.size a ≤ S256x1.size a
  h_S256x1 : 0 < S256x1.numel
  shapeCasts_S256x1_S256 : S256x1.ShapeCasts S256
  shapeCasts_S256_S1x256 : S256.ShapeCasts S1x256
  broadcasts_S1x256_S16x256 : S1x256.Broadcasts S16x256
  reduces_S16x256_S16 : S16x256.Reduces [1] S16
  shapeCasts_S16_S16x1 : S16.ShapeCasts S16x1
  inb_S1_S1_0 : ∀ a, (![0] : Fin 1 → Nat) a + S1.size a ≤ S1.size a
  h_S1 : 0 < S1.numel
  shapeCasts_S1_S1x1 : S1.ShapeCasts S1x1
  broadcasts_S1x1_S16x1 : S1x1.Broadcasts S16x1
  inb_S16x1_S16x1_0_0 : ∀ a, (![0, 0] : Fin 2 → Nat) a + S16x1.size a ≤ S16x1.size a
  h_S16x1 : 0 < S16x1.numel
  shapeCasts_S512x1_S512 : S512x1.ShapeCasts S512
  dot_S16x128x128_S16x128x128_S16x128x128_2_1_1_2_0_0_wf : DotDims.WF S16x128x128 S16x128x128 S16x128x128 [2] [1] [1] [2] [0] [0]
  dot_S2048x128_S128x256_S2048x256_1_0_0_1_n_n_wf : DotDims.WF S2048x128 S128x256 S2048x256 [1] [0] [0] [1] [] []
  dot_S16x128x128_S16x128x256_S16x128x256_2_1_1_2_0_0_wf : DotDims.WF S16x128x128 S16x128x256 S16x128x256 [2] [1] [1] [2] [0] [0]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x128.size a ≤ S512x128x128.size a
  hwx0_0 : ∀ i : grid0.Coords, EltTy.bits .f32 = 32 ∨ (Rect.block (s := S512x128x128) S16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S512x128x128.size a
  hwx0_1 : ∀ i : grid0.Coords, EltTy.bits .f32 = 32 ∨ (Rect.block (s := S512x128x128) S16x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S512x1.size a
  hwx0_10 : ∀ i : grid0.Coords, EltTy.bits .f32 = 32 ∨ (Rect.block (s := S512x1) S16x1.size (cc0_transform_10 i) (hinb0_10 i)).WholeWords (EltTy.packing .f32)

variable [Facts₀]

def dot_S16x128x128_S16x128x128_S16x128x128_2_1_1_2_0_0 : DotDims S16x128x128 S16x128x128 S16x128x128 where
  lhsContracting := [2]
  rhsContracting := [1]
  lhsNonContracting := [1]
  rhsNonContracting := [2]
  lhsBatch := [0]
  rhsBatch := [0]
  wf := dot_S16x128x128_S16x128x128_S16x128x128_2_1_1_2_0_0_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S16x128x128_S16x128x256_S16x128x256_2_1_1_2_0_0 : DotDims S16x128x128 S16x128x256 S16x128x256 where
  lhsContracting := [2]
  rhsContracting := [1]
  lhsNonContracting := [1]
  rhsNonContracting := [2]
  lhsBatch := [0]
  rhsBatch := [0]
  wf := dot_S16x128x128_S16x128x256_S16x128x256_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S16x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S512x128x128 : Shape := ⟨3, ![512, 128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S512x128x256 : Shape := ⟨3, ![512, 128, 256]⟩
abbrev S1x1x256 : Shape := ⟨3, ![1, 1, 256]⟩
abbrev S_ : Shape := ⟨0, ![]⟩
abbrev S512x256 : Shape := ⟨2, ![512, 256]⟩
abbrev S512x1 : Shape := ⟨2, ![512, 1]⟩
abbrev S1x1 : Shape := ⟨2, ![1, 1]⟩
abbrev S512 : Shape := ⟨1, ![512]⟩

abbrev nBuf : Space → Nat
  | .hbm => 44
  | .vmem => 0
  | .smem => 0
  | _ => 0

abbrev bufTy : (tb : Table) → Fin (tcTables nBuf tb) → BufTy
  | .hbm, ⟨0, _⟩ => ⟨S512x128x128, .f32⟩
  | .hbm, ⟨1, _⟩ => ⟨S512x128x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S512x128x128, .f32⟩
  | .hbm, ⟨11, _⟩ => ⟨S512x128x256, .f32⟩
  | .hbm, ⟨12, _⟩ => ⟨S1x1x256, .f32⟩
  | .hbm, ⟨13, _⟩ => ⟨S512x128x256, .f32⟩
  | .hbm, ⟨14, _⟩ => ⟨S512x128x256, .f32⟩
  | .hbm, ⟨15, _⟩ => ⟨S_, .f32⟩
  | .hbm, ⟨16, _⟩ => ⟨S512x128x256, .f32⟩
  | .hbm, ⟨17, _⟩ => ⟨S512x128x256, .f32⟩
  | .hbm, ⟨18, _⟩ => ⟨S512x128x256, .f32⟩
  | .hbm, ⟨19, _⟩ => ⟨S512x128x256, .f32⟩
  | .hbm, ⟨20, _⟩ => ⟨S1x1x256, .f32⟩
  | .hbm, ⟨21, _⟩ => ⟨S512x128x256, .f32⟩
  | .hbm, ⟨22, _⟩ => ⟨S512x128x256, .f32⟩
  | .hbm, ⟨23, _⟩ => ⟨S_, .f32⟩
  | .hbm, ⟨24, _⟩ => ⟨S512x128x256, .f32⟩
  | .hbm, ⟨25, _⟩ => ⟨S512x128x256, .f32⟩
  | .hbm, ⟨26, _⟩ => ⟨S512x128x256, .f32⟩
  | .hbm, ⟨27, _⟩ => ⟨S512x128x256, .f32⟩
  | .hbm, ⟨28, _⟩ => ⟨S1x1x256, .f32⟩
  | .hbm, ⟨29, _⟩ => ⟨S512x128x256, .f32⟩
  | .hbm, ⟨30, _⟩ => ⟨S512x128x256, .f32⟩
  | .hbm, ⟨31, _⟩ => ⟨S_, .f32⟩
  | .hbm, ⟨32, _⟩ => ⟨S512x128x256, .f32⟩
  | .hbm, ⟨33, _⟩ => ⟨S512x128x256, .f32⟩
  | .hbm, ⟨34, _⟩ => ⟨S_, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S512x1, .f32⟩
  | .hbm, ⟨40, _⟩ => ⟨S1x1, .f32⟩
  | .hbm, ⟨41, _⟩ => ⟨S512x1, .f32⟩
  | .hbm, ⟨42, _⟩ => ⟨S512x1, .f32⟩
  | .hbm, ⟨43, _⟩ => ⟨S512, .f32⟩
  | _, _ => ⟨S512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S512x128x256_0_1_2 : S1x1x256.BroadcastsInDim S512x128x256 (![0, 1, 2] : Fin 3 → Fin S512x128x256.rank)
  bcast_S_S512x128x256 : S_.BroadcastsInDim S512x128x256 (![] : Fin 0 → Fin S512x128x256.rank)
  reducesTo_S512x128x256_S512x256_d1 : S512x128x256.ReducesTo [1] S512x256
  h_S_ : 0 < S_.numel
  bcast_S_S512x256 : S_.BroadcastsInDim S512x256 (![] : Fin 0 → Fin S512x256.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S512x128x128_S512x128x128_S512x128x128_2_1_1_2_0_0_wf : DotDims.WF S512x128x128 S512x128x128 S512x128x128 [2] [1] [1] [2] [0] [0]
  dot_S512x128x128_S128x256_S512x128x256_2_0_01_1_n_n_wf : DotDims.WF S512x128x128 S128x256 S512x128x256 [2] [0] [0, 1] [1] [] []
  dot_S512x128x128_S512x128x256_S512x128x256_2_1_1_2_0_0_wf : DotDims.WF S512x128x128 S512x128x256 S512x128x256 [2] [1] [1] [2] [0] [0]
  dot_S512x128x256_S256x256_S512x128x256_2_0_01_1_n_n_wf : DotDims.WF S512x128x256 S256x256 S512x128x256 [2] [0] [0, 1] [1] [] []
  dot_S512x256_S256x1_S512x1_1_0_0_1_n_n_wf : DotDims.WF S512x256 S256x1 S512x1 [1] [0] [0] [1] [] []

variable [Facts₀]

def dot_S512x128x128_S512x128x128_S512x128x128_2_1_1_2_0_0 : DotDims S512x128x128 S512x128x128 S512x128x128 where
  lhsContracting := [2]
  rhsContracting := [1]
  lhsNonContracting := [1]
  rhsNonContracting := [2]
  lhsBatch := [0]
  rhsBatch := [0]
  wf := dot_S512x128x128_S512x128x128_S512x128x128_2_1_1_2_0_0_wf
def dot_S512x128x128_S128x256_S512x128x256_2_0_01_1_n_n : DotDims S512x128x128 S128x256 S512x128x256 where
  lhsContracting := [2]
  rhsContracting := [0]
  lhsNonContracting := [0, 1]
  rhsNonContracting := [1]
  lhsBatch := []
  rhsBatch := []
  wf := dot_S512x128x128_S128x256_S512x128x256_2_0_01_1_n_n_wf
def dot_S512x128x128_S512x128x256_S512x128x256_2_1_1_2_0_0 : DotDims S512x128x128 S512x128x256 S512x128x256 where
  lhsContracting := [2]
  rhsContracting := [1]
  lhsNonContracting := [1]
  rhsNonContracting := [2]
  lhsBatch := [0]
  rhsBatch := [0]
  wf := dot_S512x128x128_S512x128x256_S512x128x256_2_1_1_2_0_0_wf
def dot_S512x128x256_S256x256_S512x128x256_2_0_01_1_n_n : DotDims S512x128x256 S256x256 S512x128x256 where
  lhsContracting := [2]
  rhsContracting := [0]
  lhsNonContracting := [0, 1]
  rhsNonContracting := [1]
  lhsBatch := []
  rhsBatch := []
  wf := dot_S512x128x256_S256x256_S512x128x256_2_0_01_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.KMatmul.lean ====
/-
  The two kinds of matrix product in the kernel's body, read at an index, over sixteen graphs at a time.

  `A · X` is a batched product: graph by graph, contracting the neighbour axis. The dense map that follows is
  applied to all 16 · 128 = 2048 node rows at once: the rows are renumbered `r = 128 g + i`, multiplied by the
  weight matrix, and numbered back. Read at `(g, i, h)` the renumbering disappears: row `i` of graph `g`
  against column `h` of the weights.
-/
import proofs.«114303_j41824391529182_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Idealize.ShloMosaic Idealize.ShloMosaic.ValueIdx
/-! ### The batched product `A · X` of sixteen graphs, feature width 128 -/

theorem aggN_lhs0 (j : S16x128x128.Idx) (q : dot_S16x128x128_S16x128x128_S16x128x128_2_1_1_2_0_0.contr.Idx) : (dot_S16x128x128_S16x128x128_S16x128x128_2_1_1_2_0_0.lhsIdx j q 0).val = (j 0).val := by
  unfold DotDims.lhsIdx
  rw [dif_pos (show (0 : Fin S16x128x128.rank) ∈ dot_S16x128x128_S16x128x128_S16x128x128_2_1_1_2_0_0.lhsBatch by decide)]
  rfl
theorem aggN_lhs1 (j : S16x128x128.Idx) (q : dot_S16x128x128_S16x128x128_S16x128x128_2_1_1_2_0_0.contr.Idx) : (dot_S16x128x128_S16x128x128_S16x128x128_2_1_1_2_0_0.lhsIdx j q 1).val = (j 1).val := by
  unfold DotDims.lhsIdx
  rw [dif_neg (show ¬(1 : Fin S16x128x128.rank) ∈ dot_S16x128x128_S16x128x128_S16x128x128_2_1_1_2_0_0.lhsBatch by decide), dif_pos (show (1 : Fin S16x128x128.rank) ∈ dot_S16x128x128_S16x128x128_S16x128x128_2_1_1_2_0_0.lhsNonContracting by decide)]
  rfl
theorem aggN_lhs2 (j : S16x128x128.Idx) (q : dot_S16x128x128_S16x128x128_S16x128x128_2_1_1_2_0_0.contr.Idx) : (dot_S16x128x128_S16x128x128_S16x128x128_2_1_1_2_0_0.lhsIdx j q 2).val = (q ⟨0, by decide⟩).val :=
  dot_S16x128x128_S16x128x128_S16x128x128_2_1_1_2_0_0.lhsIdx_val_of_single rfl j q
theorem aggN_rhs0 (j : S16x128x128.Idx) (q : dot_S16x128x128_S16x128x128_S16x128x128_2_1_1_2_0_0.contr.Idx) : (dot_S16x128x128_S16x128x128_S16x128x128_2_1_1_2_0_0.rhsIdx j q 0).val = (j 0).val := by
  unfold DotDims.rhsIdx
  rw [dif_pos (show (0 : Fin S16x128x128.rank) ∈ dot_S16x128x128_S16x128x128_S16x128x128_2_1_1_2_0_0.rhsBatch by decide)]
  rfl
theorem aggN_rhs1 (j : S16x128x128.Idx) (q : dot_S16x128x128_S16x128x128_S16x128x128_2_1_1_2_0_0.contr.Idx) : (dot_S16x128x128_S16x128x128_S16x128x128_2_1_1_2_0_0.rhsIdx j q 1).val = (q ⟨0, by decide⟩).val :=
  dot_S16x128x128_S16x128x128_S16x128x128_2_1_1_2_0_0.rhsIdx_val_of_single rfl j q
theorem aggN_rhs2 (j : S16x128x128.Idx) (q : dot_S16x128x128_S16x128x128_S16x128x128_2_1_1_2_0_0.contr.Idx) : (dot_S16x128x128_S16x128x128_S16x128x128_2_1_1_2_0_0.rhsIdx j q 2).val = (j 2).val := by
  unfold DotDims.rhsIdx
  rw [dif_neg (show ¬(2 : Fin S16x128x128.rank) ∈ dot_S16x128x128_S16x128x128_S16x128x128_2_1_1_2_0_0.rhsBatch by decide), dif_pos (show (2 : Fin S16x128x128.rank) ∈ dot_S16x128x128_S16x128x128_S16x128x128_2_1_1_2_0_0.rhsNonContracting by decide)]
  rfl

/-- Entry `(g, i, d)` of the batched product into a zero accumulator: node `i` of graph `g` sums, over its
    128 possible neighbours `j`, the adjacency entry `(g, i, j)` times the feature entry `(g, j, d)`. -/
theorem aggN_apply (a : FVec Ideal S16x128x128 .bf16) (x : FVec Ideal S16x128x128 .bf16) (g : Fin 16) (i : Fin 128) (d : Fin 128) :
    matmul dot_S16x128x128_S16x128x128_S16x128x128_2_1_1_2_0_0 none a x (constant S16x128x128 .f32 0x00000000#32) (ix3 g i d)
      = ∑ j : Fin 128, a (ix3 g i j) * x (ix3 g j d) := by
  refine (Ideal.matmul_constant_zero_apply dot_S16x128x128_S16x128x128_S16x128x128_2_1_1_2_0_0 none a x (ix3 g i d)).trans ?_
  rw [← Equiv.sum_comp (contrEquiv1 dot_S16x128x128_S16x128x128_S16x128x128_2_1_1_2_0_0 128 rfl rfl).symm]
  refine Finset.sum_congr rfl fun k _ => ?_
  have hk := contrEquiv1_symm_val dot_S16x128x128_S16x128x128_S16x128x128_2_1_1_2_0_0 128 rfl rfl k
  have el : dot_S16x128x128_S16x128x128_S16x128x128_2_1_1_2_0_0.lhsIdx (ix3 g i d) ((contrEquiv1 dot_S16x128x128_S16x128x128_S16x128x128_2_1_1_2_0_0 128 rfl rfl).symm k) = ix3 g i k := funext fun c => Fin.ext (by
    match c with
    | ⟨0, _⟩ => exact aggN_lhs0 _ _
    | ⟨1, _⟩ => exact aggN_lhs1 _ _
    | ⟨2, _⟩ => exact (aggN_lhs2 _ _).trans hk)
  have er : dot_S16x128x128_S16x128x128_S16x128x128_2_1_1_2_0_0.rhsIdx (ix3 g i d) ((contrEquiv1 dot_S16x128x128_S16x128x128_S16x128x128_2_1_1_2_0_0 128 rfl rfl).symm k) = ix3 g k d := funext fun c => Fin.ext (by
    match c with
    | ⟨0, _⟩ => exact aggN_rhs0 _ _
    | ⟨1, _⟩ => exact (aggN_rhs1 _ _).trans hk
    | ⟨2, _⟩ => exact aggN_rhs2 _ _)
  rw [el, er]
/-! ### The batched product `A · X` of sixteen graphs, feature width 256 -/

theorem aggW_lhs0 (j : S16x128x256.Idx) (q : dot_S16x128x128_S16x128x256_S16x128x256_2_1_1_2_0_0.contr.Idx) : (dot_S16x128x128_S16x128x256_S16x128x256_2_1_1_2_0_0.lhsIdx j q 0).val = (j 0).val := by
  unfold DotDims.lhsIdx
  rw [dif_pos (show (0 : Fin S16x128x128.rank) ∈ dot_S16x128x128_S16x128x256_S16x128x256_2_1_1_2_0_0.lhsBatch by decide)]
  rfl
theorem aggW_lhs1 (j : S16x128x256.Idx) (q : dot_S16x128x128_S16x128x256_S16x128x256_2_1_1_2_0_0.contr.Idx) : (dot_S16x128x128_S16x128x256_S16x128x256_2_1_1_2_0_0.lhsIdx j q 1).val = (j 1).val := by
  unfold DotDims.lhsIdx
  rw [dif_neg (show ¬(1 : Fin S16x128x128.rank) ∈ dot_S16x128x128_S16x128x256_S16x128x256_2_1_1_2_0_0.lhsBatch by decide), dif_pos (show (1 : Fin S16x128x128.rank) ∈ dot_S16x128x128_S16x128x256_S16x128x256_2_1_1_2_0_0.lhsNonContracting by decide)]
  rfl
theorem aggW_lhs2 (j : S16x128x256.Idx) (q : dot_S16x128x128_S16x128x256_S16x128x256_2_1_1_2_0_0.contr.Idx) : (dot_S16x128x128_S16x128x256_S16x128x256_2_1_1_2_0_0.lhsIdx j q 2).val = (q ⟨0, by decide⟩).val :=
  dot_S16x128x128_S16x128x256_S16x128x256_2_1_1_2_0_0.lhsIdx_val_of_single rfl j q
theorem aggW_rhs0 (j : S16x128x256.Idx) (q : dot_S16x128x128_S16x128x256_S16x128x256_2_1_1_2_0_0.contr.Idx) : (dot_S16x128x128_S16x128x256_S16x128x256_2_1_1_2_0_0.rhsIdx j q 0).val = (j 0).val := by
  unfold DotDims.rhsIdx
  rw [dif_pos (show (0 : Fin S16x128x256.rank) ∈ dot_S16x128x128_S16x128x256_S16x128x256_2_1_1_2_0_0.rhsBatch by decide)]
  rfl
theorem aggW_rhs1 (j : S16x128x256.Idx) (q : dot_S16x128x128_S16x128x256_S16x128x256_2_1_1_2_0_0.contr.Idx) : (dot_S16x128x128_S16x128x256_S16x128x256_2_1_1_2_0_0.rhsIdx j q 1).val = (q ⟨0, by decide⟩).val :=
  dot_S16x128x128_S16x128x256_S16x128x256_2_1_1_2_0_0.rhsIdx_val_of_single rfl j q
theorem aggW_rhs2 (j : S16x128x256.Idx) (q : dot_S16x128x128_S16x128x256_S16x128x256_2_1_1_2_0_0.contr.Idx) : (dot_S16x128x128_S16x128x256_S16x128x256_2_1_1_2_0_0.rhsIdx j q 2).val = (j 2).val := by
  unfold DotDims.rhsIdx
  rw [dif_neg (show ¬(2 : Fin S16x128x256.rank) ∈ dot_S16x128x128_S16x128x256_S16x128x256_2_1_1_2_0_0.rhsBatch by decide), dif_pos (show (2 : Fin S16x128x256.rank) ∈ dot_S16x128x128_S16x128x256_S16x128x256_2_1_1_2_0_0.rhsNonContracting by decide)]
  rfl

/-- Entry `(g, i, d)` of the batched product into a zero accumulator: node `i` of graph `g` sums, over its
    128 possible neighbours `j`, the adjacency entry `(g, i, j)` times the feature entry `(g, j, d)`. -/
theorem aggW_apply (a : FVec Ideal S16x128x128 .bf16) (x : FVec Ideal S16x128x256 .bf16) (g : Fin 16) (i : Fin 128) (d : Fin 256) :
    matmul dot_S16x128x128_S16x128x256_S16x128x256_2_1_1_2_0_0 none a x (constant S16x128x256 .f32 0x00000000#32) (ix3 g i d)
      = ∑ j : Fin 128, a (ix3 g i j) * x (ix3 g j d) := by
  refine (Ideal.matmul_constant_zero_apply dot_S16x128x128_S16x128x256_S16x128x256_2_1_1_2_0_0 none a x (ix3 g i d)).trans ?_
  rw [← Equiv.sum_comp (contrEquiv1 dot_S16x128x128_S16x128x256_S16x128x256_2_1_1_2_0_0 128 rfl rfl).symm]
  refine Finset.sum_congr rfl fun k _ => ?_
  have hk := contrEquiv1_symm_val dot_S16x128x128_S16x128x256_S16x128x256_2_1_1_2_0_0 128 rfl rfl k
  have el : dot_S16x128x128_S16x128x256_S16x128x256_2_1_1_2_0_0.lhsIdx (ix3 g i d) ((contrEquiv1 dot_S16x128x128_S16x128x256_S16x128x256_2_1_1_2_0_0 128 rfl rfl).symm k) = ix3 g i k := funext fun c => Fin.ext (by
    match c with
    | ⟨0, _⟩ => exact aggW_lhs0 _ _
    | ⟨1, _⟩ => exact aggW_lhs1 _ _
    | ⟨2, _⟩ => exact (aggW_lhs2 _ _).trans hk)
  have er : dot_S16x128x128_S16x128x256_S16x128x256_2_1_1_2_0_0.rhsIdx (ix3 g i d) ((contrEquiv1 dot_S16x128x128_S16x128x256_S16x128x256_2_1_1_2_0_0 128 rfl rfl).symm k) = ix3 g k d := funext fun c => Fin.ext (by
    match c with
    | ⟨0, _⟩ => exact aggW_rhs0 _ _
    | ⟨1, _⟩ => exact (aggW_rhs1 _ _).trans hk
    | ⟨2, _⟩ => exact aggW_rhs2 _ _)
  rw [el, er]

/-! ### The dense map on all 2048 node rows at once, 128 input features -/

theorem denN_lhs0 (j : S2048x256.Idx) (q : dot_S2048x128_S128x256_S2048x256_1_0_0_1_n_n.contr.Idx) : (dot_S2048x128_S128x256_S2048x256_1_0_0_1_n_n.lhsIdx j q 0).val = (j 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem denN_lhs1 (j : S2048x256.Idx) (q : dot_S2048x128_S128x256_S2048x256_1_0_0_1_n_n.contr.Idx) : (dot_S2048x128_S128x256_S2048x256_1_0_0_1_n_n.lhsIdx j q 1).val = (q ⟨0, by decide⟩).val :=
  dot_S2048x128_S128x256_S2048x256_1_0_0_1_n_n.lhsIdx_val_of_single rfl j q
theorem denN_rhs0 (j : S2048x256.Idx) (q : dot_S2048x128_S128x256_S2048x256_1_0_0_1_n_n.contr.Idx) : (dot_S2048x128_S128x256_S2048x256_1_0_0_1_n_n.rhsIdx j q 0).val = (q ⟨0, by decide⟩).val :=
  dot_S2048x128_S128x256_S2048x256_1_0_0_1_n_n.rhsIdx_val_of_single rfl j q
theorem denN_rhs1 (j : S2048x256.Idx) (q : dot_S2048x128_S128x256_S2048x256_1_0_0_1_n_n.contr.Idx) : (dot_S2048x128_S128x256_S2048x256_1_0_0_1_n_n.rhsIdx j q 1).val = (j 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The node rows of sixteen graphs renumbered `r = 128 g + i`, multiplied by the weights into a zero accumulator,
    and numbered back: entry `(g, i, h)` is row `i` of graph `g` against column `h` of the weights. -/
theorem denN_apply (y : FVec Ideal S16x128x128 .bf16) (w : FVec Ideal S128x256 .bf16) (g : Fin 16) (i : Fin 128) (h : Fin 256) :
    shapeCast S16x128x256 (matmul dot_S2048x128_S128x256_S2048x256_1_0_0_1_n_n none (shapeCast S2048x128 y shapeCasts_S16x128x128_S2048x128) w
        (constant S2048x256 .f32 0x00000000#32)) shapeCasts_S2048x256_S16x128x256 (ix3 g i h)
      = ∑ d : Fin 128, y (ix3 g i d) * w (ix2 d h) := by
  have hr : g.val * 128 + i.val < 2048 := by have := g.isLt; have := i.isLt; omega
  refine (shapeCast_apply _ shapeCasts_S2048x256_S16x128x256 (ix3 g i h) (ix2 ⟨g.val * 128 + i.val, hr⟩ h) ?_).trans ?_
  · rw [Shape.rowMajor_val_two, Shape.rowMajor_val_three]; rfl
  refine (Ideal.matmul_constant_zero_apply dot_S2048x128_S128x256_S2048x256_1_0_0_1_n_n none _ w _).trans ?_
  rw [← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 ⟨g.val * 128 + i.val, hr⟩ h) ((contrEquiv1 dot_S2048x128_S128x256_S2048x256_1_0_0_1_n_n 128 rfl rfl).symm k)
      = ix2 ⟨g.val * 128 + i.val, hr⟩ k := funext fun c => Fin.ext (by
    match c with
    | ⟨0, _⟩ => exact denN_lhs0 _ _
    | ⟨1, _⟩ => exact (denN_lhs1 _ _).trans hk)
  have er : dot_S2048x128_S128x256_S2048x256_1_0_0_1_n_n.rhsIdx (ix2 ⟨g.val * 128 + i.val, hr⟩ h) ((contrEquiv1 dot_S2048x128_S128x256_S2048x256_1_0_0_1_n_n 128 rfl rfl).symm k) = ix2 k h := funext fun c => Fin.ext (by
    match c with
    | ⟨0, _⟩ => exact (denN_rhs0 _ _).trans hk
    | ⟨1, _⟩ => exact denN_rhs1 _ _)
  rw [el, er]
  refine congrArg (· * w (ix2 k h)) ?_
  refine shapeCast_apply y shapeCasts_S16x128x128_S2048x128 _ (ix3 g i k) ?_
  rw [Shape.rowMajor_val_three, Shape.rowMajor_val_two]; rfl

/-! ### The dense map on all 2048 node rows at once, 256 input features -/

theorem denW_lhs0 (j : S2048x256.Idx) (q : dot_S2048x256_S256x256_S2048x256_1_0_0_1_n_n.contr.Idx) : (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem denW_lhs1 (j : S2048x256.Idx) (q : dot_S2048x256_S256x256_S2048x256_1_0_0_1_n_n.contr.Idx) : (dot_S2048x256_S256x256_S2048x256_1_0_0_1_n_n.lhsIdx j q 1).val = (q ⟨0, by decide⟩).val :=
  dot_S2048x256_S256x256_S2048x256_1_0_0_1_n_n.lhsIdx_val_of_single rfl j q
theorem denW_rhs0 (j : S2048x256.Idx) (q : dot_S2048x256_S256x256_S2048x256_1_0_0_1_n_n.contr.Idx) : (dot_S2048x256_S256x256_S2048x256_1_0_0_1_n_n.rhsIdx j q 0).val = (q ⟨0, by decide⟩).val :=
  dot_S2048x256_S256x256_S2048x256_1_0_0_1_n_n.rhsIdx_val_of_single rfl j q
theorem denW_rhs1 (j : S2048x256.Idx) (q : dot_S2048x256_S256x256_S2048x256_1_0_0_1_n_n.contr.Idx) : (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The node rows of sixteen graphs renumbered `r = 128 g + i`, multiplied by the weights into a zero accumulator,
    and numbered back: entry `(g, i, h)` is row `i` of graph `g` against column `h` of the weights. -/
theorem denW_apply (y : FVec Ideal S16x128x256 .bf16) (w : FVec Ideal S256x256 .bf16) (g : Fin 16) (i : Fin 128) (h : Fin 256) :
    shapeCast S16x128x256 (matmul dot_S2048x256_S256x256_S2048x256_1_0_0_1_n_n none (shapeCast S2048x256 y shapeCasts_S16x128x256_S2048x256) w
        (constant S2048x256 .f32 0x00000000#32)) shapeCasts_S2048x256_S16x128x256 (ix3 g i h)
      = ∑ d : Fin 256, y (ix3 g i d) * w (ix2 d h) := by
  have hr : g.val * 128 + i.val < 2048 := by have := g.isLt; have := i.isLt; omega
  refine (shapeCast_apply _ shapeCasts_S2048x256_S16x128x256 (ix3 g i h) (ix2 ⟨g.val * 128 + i.val, hr⟩ h) ?_).trans ?_
  · rw [Shape.rowMajor_val_two, Shape.rowMajor_val_three]; rfl
  refine (Ideal.matmul_constant_zero_apply dot_S2048x256_S256x256_S2048x256_1_0_0_1_n_n none _ w _).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 ⟨g.val * 128 + i.val, hr⟩ h) ((contrEquiv1 dot_S2048x256_S256x256_S2048x256_1_0_0_1_n_n 256 rfl rfl).symm k)
      = ix2 ⟨g.val * 128 + i.val, hr⟩ k := funext fun c => Fin.ext (by
    match c with
    | ⟨0, _⟩ => exact denW_lhs0 _ _
    | ⟨1, _⟩ => exact (denW_lhs1 _ _).trans hk)
  have er : dot_S2048x256_S256x256_S2048x256_1_0_0_1_n_n.rhsIdx (ix2 ⟨g.val * 128 + i.val, hr⟩ h) ((contrEquiv1 dot_S2048x256_S256x256_S2048x256_1_0_0_1_n_n 256 rfl rfl).symm k) = ix2 k h := funext fun c => Fin.ext (by
    match c with
    | ⟨0, _⟩ => exact (denW_rhs0 _ _).trans hk
    | ⟨1, _⟩ => exact denW_rhs1 _ _)
  rw [el, er]
  refine congrArg (· * w (ix2 k h)) ?_
  refine shapeCast_apply y shapeCasts_S16x128x256_S2048x256 _ (ix3 g i k) ?_
  rw [Shape.rowMajor_val_three, Shape.rowMajor_val_two]; rfl

end Cert.KernelIdeal.Layer

end
-- ==== Proof.Spec.lean ====
/-
  One graph of the three-layer graph convolution, over the extended reals.

  For a graph with 128 nodes, adjacency `A` (128 × 128) and node features `X` (128 × D), one layer is
  `relu ((A · X) · W + b)`: first every node sums its neighbours' feature rows (`agg`), then the summed rows
  go through a dense map with bias and are clipped at zero (`dense`). Three such layers are followed by the
  mean over the nodes (`pool`: the column sums divided by 128) and a linear read-out to one number (`head`).
  The whole is `gcn`, a function of ONE graph's adjacency and features and of the shared weights. Both programs
  compute exactly this, graph by graph; they differ only in how many graphs they hold at a time and in how
  the rows are laid out while a dense map is applied.

  The float literals (the zero of the clip, the divisor 128) are kept as the words both programs print.
-/
import Idealize.ShloMosaic.PureOps.Ideal
import Idealize.ShloMosaic.Lib.ValueIdx

noncomputable section

namespace Cert.GcnSpec

open Idealize.ShloMosaic

/-- Row `i` of `A · X`: the rows of `X` summed with the weights of row `i` of `A`. -/
def agg {D : Nat} (A : Fin 128 → Fin 128 → EReal) (X : Fin 128 → Fin D → EReal) (i : Fin 128) (d : Fin D) : EReal :=
  ∑ j : Fin 128, A i j * X j d

/-- `relu (X · W + b)`: entry `(i, h)` is the clip at zero of row `i` of `X` against column `h` of `W`, plus `b h`. -/
def dense {D : Nat} (X : Fin 128 → Fin D → EReal) (W : Fin D → Fin 256 → EReal) (b : Fin 256 → EReal)
    (i : Fin 128) (h : Fin 256) : EReal :=
  max ((∑ d : Fin D, X i d * W d h) + b h) (Ideal.ofBits .f32 0x00000000#32)

/-- The mean over the 128 nodes: each column's sum divided by the literal 128. -/
def pool (X : Fin 128 → Fin 256 → EReal) (h : Fin 256) : EReal :=
  Ideal.div (∑ i : Fin 128, X i h) (Ideal.ofBits .f32 0x43000000#32)

/-- The linear read-out: the pooled row against the weight column, plus the bias. -/
def head (p : Fin 256 → EReal) (wh : Fin 256 → EReal) (bh : EReal) : EReal :=
  (∑ h : Fin 256, p h * wh h) + bh

/-- One graph through the three layers, the pooling and the read-out. -/
def gcn (A : Fin 128 → Fin 128 → EReal) (X : Fin 128 → Fin 128 → EReal)
    (W1 : Fin 128 → Fin 256 → EReal) (b1 : Fin 256 → EReal)
    (W2 : Fin 256 → Fin 256 → EReal) (b2 : Fin 256 → EReal)
    (W3 : Fin 256 → Fin 256 → EReal) (b3 : Fin 256 → EReal)
    (wh : Fin 256 → EReal) (bh : EReal) : EReal :=
  head (pool (dense (agg A (dense (agg A (dense (agg A X) W1 b1)) W2 b2)) W3 b3)) wh bh

open Idealize.ShloMosaic.ValueIdx

/-- The result for graph `g` of a batch of `n` graphs held as arrays: `gcn` of that graph's slices of the feature
    and adjacency arrays and of the weight arrays read by coordinates (the read-out weights are a [256, 1] column,
    the read-out bias a one-element vector). -/
def ofArrays {n : Nat} (nf adj : (⟨3, ![n, 128, 128]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (wh : (⟨2, ![256, 1]⟩ : Shape).Idx → EReal) (bh : (⟨1, ![1]⟩ : Shape).Idx → EReal) (g : Fin n) : EReal :=
  gcn (fun i j => adj (ix3 g i j)) (fun j d => nf (ix3 g j d)) (fun d h => W1 (ix2 d h)) (fun h => b1 (ix1 h))
    (fun d h => W2 (ix2 d h)) (fun h => b2 (ix1 h)) (fun d h => W3 (ix2 d h)) (fun h => b3 (ix1 h))
    (fun h => wh (ix2 h (0 : Fin 1))) (bh (ix1 (0 : Fin 1)))

/-- Graphs do not mix: if a block of sixteen graphs is graphs `16 t … 16 t + 15` of the whole batch, the result for
    local graph `g` of the block is the result for graph `16 t + g` of the batch. -/
theorem ofArrays_block (nf adj : (⟨3, ![512, 128, 128]⟩ : Shape).Idx → EReal) (nfb adjb : (⟨3, ![16, 128, 128]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (wh : (⟨2, ![256, 1]⟩ : Shape).Idx → EReal) (bh : (⟨1, ![1]⟩ : Shape).Idx → EReal)
    (g : Fin 16) (G : Fin 512)
    (hnf : ∀ i j : Fin 128, nfb (ix3 g i j) = nf (ix3 G i j)) (hadj : ∀ i j : Fin 128, adjb (ix3 g i j) = adj (ix3 G i j)) :
    ofArrays (n := 16) nfb adjb W1 b1 W2 b2 W3 b3 wh bh g = ofArrays (n := 512) nf adj W1 b1 W2 b2 W3 b3 wh bh G := by
  unfold ofArrays
  rw [show (fun i j => adjb (ix3 g i j)) = fun i j => adj (ix3 G i j) from funext fun i => funext fun j => hadj i j,
    show (fun j d => nfb (ix3 g j d)) = fun j d => nf (ix3 G j d) from funext fun i => funext fun j => hnf i j]

end Cert.GcnSpec

end
-- ==== Proof.KBody.lean ====
/-
  The kernel's body, for one block of sixteen graphs, is the specification graph by graph.

  The body's arithmetic is three pure terms over the ten loaded blocks. Read at local graph `g` of the block:
  the bias is a row broadcast over graphs and nodes and the clip is a pointwise maximum with the zero word
  (`bias_relu_apply`); the pooling is the sum over the node axis divided by the splat of 128 (`pool_apply`); the
  read-out multiplies the pooled row by the weight column laid out as a row and sums over the 256 features, then
  adds the one bias word (`head_apply`). With the two matrix products of the sibling module these turn the whole
  body into `GcnSpec.gcn` of graph `g`'s slices of the adjacency and feature blocks (`body_eq`). The roundings
  to the sixteen-bit format on the way into each product are the identity on the extended reals.
-/
import proofs.«114303_j41824391529182_2_alg».proof.Proof.Gen.KernelIdeal.Skeleton
import proofs.«114303_j41824391529182_2_alg».proof.Proof.KMatmul
import proofs.«114303_j41824391529182_2_alg».proof.Proof.Spec

noncomputable section

namespace Cert.KernelIdeal.Layer

open Cert.KernelIdeal Cert.KernelIdeal.Facts₀ Idealize.ShloMosaic Idealize.ShloMosaic.ValueIdx

/-- A bias row added to every node row of every graph, then the clip at zero, at entry `(g, i, h)`. -/
theorem bias_relu_apply (z : FVec Ideal S16x128x256 .f32) (b : FVec Ideal S256 .f32) (g : Fin 16) (i : Fin 128) (h : Fin 256) :
    maximumf (addf z (broadcastTo S16x128x256 (shapeCast S1x1x256 b shapeCasts_S256_S1x1x256) broadcasts_S1x1x256_S16x128x256))
        (broadcast S16x128x256 (Scalar.ofBits .f32 0x00000000#32)) (ix3 g i h)
      = max (z (ix3 g i h) + b (ix1 h)) (Ideal.ofBits .f32 0x00000000#32) := by
  rw [maximumf_apply, addf_apply, broadcast_apply]
  rw [broadcastTo_apply _ broadcasts_S1x1x256_S16x128x256 (ix3 g i h) (ix3 (0 : Fin 1) (0 : Fin 1) h) (fun a => by
    match a with
    | ⟨0, _⟩ => show 0 = if (1 : Nat) = 1 then 0 else _; rw [if_pos rfl]
    | ⟨1, _⟩ => show 0 = if (1 : Nat) = 1 then 0 else _; rw [if_pos rfl]
    | ⟨2, _⟩ => show h.val = if (256 : Nat) = 1 then 0 else h.val; rw [if_neg (by decide)])]
  rw [shapeCast_apply b shapeCasts_S256_S1x1x256 (ix3 (0 : Fin 1) (0 : Fin 1) h) (ix1 h) (by
    rw [Shape.rowMajor_val_one, Shape.rowMajor_val_three]; show h.val = (0 * 1 + 0) * 256 + h.val; omega)]
  rfl

/-- The mean over the nodes at `(g, h)`: the column's sum over the 128 nodes of graph `g`, divided by the literal 128. -/
theorem pool_apply (z : FVec Ideal S16x128x256 .f32) (g : Fin 16) (h : Fin 256) :
    divf (multiReduction .add [1] S16x256 z 0x00000000#32 reduces_S16x128x256_S16x256 (.inl rfl) rfl)
        (broadcast S16x256 (Scalar.ofBits .f32 0x43000000#32)) (ix2 g h)
      = Ideal.div (∑ i : Fin 128, z (ix3 g i h)) (Ideal.ofBits .f32 0x43000000#32) := by
  rw [divf_apply, broadcast_apply]
  refine congrArg (fun s => Ideal.div s (Ideal.ofBits .f32 0x43000000#32)) ?_
  refine (Ideal.multiReduction_add_single z 0x00000000#32 reduces_S16x128x256_S16x256 _ _ (ix2 g h)).trans ?_
  refine Finset.sum_congr rfl fun k _ => congrArg z (funext fun a => Fin.ext (by
    match a with | ⟨0, _⟩ => rfl | ⟨1, _⟩ => rfl | ⟨2, _⟩ => rfl))

/-- The read-out at graph `g`: the pooled row times the weight column (a [256, 1] block read as a row and repeated
    for every graph), summed over the 256 features, plus the bias word repeated for every graph. -/
theorem head_apply (p : FVec Ideal S16x256 .f32) (wh : FVec Ideal S256x1 .f32) (bh : FVec Ideal S1 .f32) (g : Fin 16) :
    addf (shapeCast S16x1 (multiReduction .add [1] S16 (mulf p (broadcastTo S16x256 (shapeCast S1x256
            (shapeCast S256 wh shapeCasts_S256x1_S256) shapeCasts_S256_S1x256) broadcasts_S1x256_S16x256))
          0x00000000#32 reduces_S16x256_S16 (.inl rfl) rfl) shapeCasts_S16_S16x1)
        (broadcastTo S16x1 (shapeCast S1x1 bh shapeCasts_S1_S1x1) broadcasts_S1x1_S16x1) (ix2 g (0 : Fin 1))
      = (∑ h : Fin 256, p (ix2 g h) * wh (ix2 h (0 : Fin 1))) + bh (ix1 (0 : Fin 1)) := by
  rw [addf_apply]
  congr 1
  · refine (shapeCast_apply _ shapeCasts_S16_S16x1 (ix2 g (0 : Fin 1)) (ix1 g) (by
      rw [Shape.rowMajor_val_one, Shape.rowMajor_val_two]; show g.val = g.val * 1 + 0; omega)).trans ?_
    refine (Ideal.multiReduction_add_single _ 0x00000000#32 reduces_S16x256_S16 _ _ (ix1 g)).trans ?_
    show ∑ k : Fin 256, _ = ∑ h : Fin 256, _
    refine Finset.sum_congr rfl fun k _ => ?_
    have e : reduces_S16x256_S16.lift (ix1 g) k = ix2 g k := funext fun a => Fin.ext (by
      match a with | ⟨0, _⟩ => rfl | ⟨1, _⟩ => rfl)
    rw [e, mulf_apply]
    refine congrArg (p (ix2 g k) * ·) ?_
    refine (broadcastTo_apply _ broadcasts_S1x256_S16x256 (ix2 g k) (ix2 (0 : Fin 1) k) (fun a => by
      match a with
      | ⟨0, _⟩ => show 0 = if (1 : Nat) = 1 then 0 else _; rw [if_pos rfl]
      | ⟨1, _⟩ => show k.val = if (256 : Nat) = 1 then 0 else k.val; rw [if_neg (by decide)])).trans ?_
    refine (shapeCast_apply _ shapeCasts_S256_S1x256 (ix2 (0 : Fin 1) k) (ix1 k) (by
      rw [Shape.rowMajor_val_one, Shape.rowMajor_val_two]; show k.val = 0 * 256 + k.val; omega)).trans ?_
    exact shapeCast_apply wh shapeCasts_S256x1_S256 (ix1 k) (ix2 k (0 : Fin 1)) (by
      rw [Shape.rowMajor_val_two, Shape.rowMajor_val_one]; show k.val * 1 + 0 = k.val; omega)
  · refine (broadcastTo_apply _ broadcasts_S1x1_S16x1 (ix2 g (0 : Fin 1)) (ix2 (0 : Fin 1) (0 : Fin 1)) (fun a => by
      match a with
      | ⟨0, _⟩ => show 0 = if (1 : Nat) = 1 then 0 else _; rw [if_pos rfl]
      | ⟨1, _⟩ => show 0 = if (1 : Nat) = 1 then 0 else _; rw [if_pos rfl])).trans ?_
    exact shapeCast_apply bh shapeCasts_S1_S1x1 (ix2 (0 : Fin 1) (0 : Fin 1)) (ix1 (0 : Fin 1)) (by
      rw [Shape.rowMajor_val_one, Shape.rowMajor_val_two]; rfl)

/-- One whole layer on sixteen graphs with 128 input features, at entry `(g, i, h)`: the batched product with the
    adjacency, the rounding, the dense map on renumbered rows, the bias and the clip are `dense (agg A X) W b` of graph
    `g`'s slices. -/
theorem layerN_apply (a xb : FVec Ideal S16x128x128 .bf16) (w : FVec Ideal S128x256 .f32) (b : FVec Ideal S256 .f32)
    (g : Fin 16) (i : Fin 128) (h : Fin 256) :
    maximumf (addf (shapeCast S16x128x256 (matmul dot_S2048x128_S128x256_S2048x256_1_0_0_1_n_n none
          (shapeCast S2048x128 (truncf .bf16 (matmul dot_S16x128x128_S16x128x128_S16x128x128_2_1_1_2_0_0 none a xb
            (constant S16x128x128 .f32 0x00000000#32)) bitsLt_bf16_f32) shapeCasts_S16x128x128_S2048x128)
          (truncf .bf16 w bitsLt_bf16_f32) (constant S2048x256 .f32 0x00000000#32)) shapeCasts_S2048x256_S16x128x256)
        (broadcastTo S16x128x256 (shapeCast S1x1x256 b shapeCasts_S256_S1x1x256) broadcasts_S1x1x256_S16x128x256))
      (broadcast S16x128x256 (Scalar.ofBits .f32 0x00000000#32)) (ix3 g i h)
    = GcnSpec.dense (GcnSpec.agg (fun i j => a (ix3 g i j)) (fun j d => xb (ix3 g j d))) (fun d h => w (ix2 d h))
        (fun h => b (ix1 h)) i h := by
  rw [bias_relu_apply, denN_apply]
  unfold GcnSpec.dense GcnSpec.agg
  refine congrArg (fun s => max (s + b (ix1 h)) (Ideal.ofBits .f32 0x00000000#32)) (Finset.sum_congr rfl fun d _ => ?_)
  rw [truncf_apply, truncf_apply, aggN_apply]

/-- The same with 256 input features (the second and third layers). -/
theorem layerW_apply (a : FVec Ideal S16x128x128 .bf16) (xb : FVec Ideal S16x128x256 .bf16) (w : FVec Ideal S256x256 .f32)
    (b : FVec Ideal S256 .f32) (g : Fin 16) (i : Fin 128) (h : Fin 256) :
    maximumf (addf (shapeCast S16x128x256 (matmul dot_S2048x256_S256x256_S2048x256_1_0_0_1_n_n none
          (shapeCast S2048x256 (truncf .bf16 (matmul dot_S16x128x128_S16x128x256_S16x128x256_2_1_1_2_0_0 none a xb
            (constant S16x128x256 .f32 0x00000000#32)) bitsLt_bf16_f32) shapeCasts_S16x128x256_S2048x256)
          (truncf .bf16 w bitsLt_bf16_f32) (constant S2048x256 .f32 0x00000000#32)) shapeCasts_S2048x256_S16x128x256)
        (broadcastTo S16x128x256 (shapeCast S1x1x256 b shapeCasts_S256_S1x1x256) broadcasts_S1x1x256_S16x128x256))
      (broadcast S16x128x256 (Scalar.ofBits .f32 0x00000000#32)) (ix3 g i h)
    = GcnSpec.dense (GcnSpec.agg (fun i j => a (ix3 g i j)) (fun j d => xb (ix3 g j d))) (fun d h => w (ix2 d h))
        (fun h => b (ix1 h)) i h := by
  rw [bias_relu_apply, denW_apply]
  unfold GcnSpec.dense GcnSpec.agg
  refine congrArg (fun s => max (s + b (ix1 h)) (Ideal.ofBits .f32 0x00000000#32)) (Finset.sum_congr rfl fun d _ => ?_)
  rw [truncf_apply, truncf_apply, aggW_apply]

/-- THE BODY, at local graph `g` of a block: the value the one store writes at `(g, 0)` is the specification of graph
    `g` of the loaded feature block `x0` and adjacency block `x1` (the body loads the adjacency first). Layer by
    layer from the outside: the read-out, the pooling, then each layer's input is the layer before it. -/
theorem body_eq (x0 x1 : FVec Ideal S16x128x128 .f32) (x2 : FVec Ideal S128x256 .f32) (x3 : FVec Ideal S256 .f32)
    (x4 : FVec Ideal S256x256 .f32) (x5 : FVec Ideal S256 .f32) (x6 : FVec Ideal S256x256 .f32) (x7 : FVec Ideal S256 .f32)
    (x8 : FVec Ideal S256x1 .f32) (x9 : FVec Ideal S1 .f32) (g : Fin 16) :
    Gen.k0_pay1 (F := Ideal) (Gen.k0_pay2 (F := Ideal) x1 x0 x2 x3 x4 x5) (Gen.k0_pay3 (F := Ideal) x6)
        (constant (F := Ideal) S2048x256 .f32 0x00000000#32) x7 x8 x9 (ix2 g (0 : Fin 1))
      = GcnSpec.ofArrays (n := 16) x0 x1 x2 x3 x4 x5 x6 x7 x8 x9 g := by
  unfold Gen.k0_pay1 Gen.k0_pay2 Gen.k0_pay3 GcnSpec.ofArrays GcnSpec.gcn
  rw [head_apply]
  unfold GcnSpec.head
  refine congrArg (· + x9 (ix1 (0 : Fin 1))) (Finset.sum_congr rfl fun h _ => congrArg (· * x8 (ix2 h (0 : Fin 1))) ?_)
  rw [pool_apply]
  unfold GcnSpec.pool
  refine congrArg (fun s => Ideal.div s (Ideal.ofBits .f32 0x43000000#32)) (Finset.sum_congr rfl fun i _ => ?_)
  rw [layerW_apply]
  refine congrArg (fun X => GcnSpec.dense (GcnSpec.agg _ X) _ _ i h) (funext fun j => funext fun d => ?_)
  rw [truncf_apply, layerW_apply]
  refine congrArg (fun X => GcnSpec.dense (GcnSpec.agg _ X) _ _ j d) (funext fun j' => funext fun d' => ?_)
  rw [truncf_apply, layerN_apply]
  rfl

end Cert.KernelIdeal.Layer

end
-- ==== Proof.KValue.lean ====
/-
  From the blocks to the result array, and through the reshape that follows the region.

  The grid has 32 points; point `t` holds graphs `16 t … 16 t + 15`: its feature and adjacency blocks are those graphs'
  slices of the two big arguments, and every weight block is the whole weight array at every point. So what point `t`
  writes back — the body's value at local graph `g` — is the specification of graph `16 t + g` of the argument arrays
  (`flushed_eq`). The 32 output blocks of [16, 1] tile the [512, 1] result (the block of row `r` is `r / 16`), so the array
  after the region is the specification at every graph (`final`), and the reshape to [512] that follows keeps each
  entry (`tail_eq`). `run` is the generated frame run with its post read this way.
-/
import proofs.«114303_j41824391529182_2_alg».proof.Proof.Gen.KernelIdeal.Frame
import proofs.«114303_j41824391529182_2_alg».proof.Proof.KBody
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result array [512, 1] as one function of the ten argument arrays: at row `r`, the specification of graph `r`. -/
def G (a0 a1 : S512x128x128.Idx → EReal) (a2 : S128x256.Idx → EReal) (a3 : S256.Idx → EReal) (a4 : S256x256.Idx → EReal)
    (a5 : S256.Idx → EReal) (a6 : S256x256.Idx → EReal) (a7 : S256.Idx → EReal) (a8 : S256x1.Idx → EReal) (a9 : S1.Idx → EReal) :
    S512x1.Idx → EReal :=
  fun i => GcnSpec.ofArrays (n := 512) a0 a1 a2 a3 a4 a5 a6 a7 a8 a9 ⟨(i 0).val, (i 0).isLt⟩

/-- The printed index maps, decided over the 32 points: the two big inputs and the output move with the point along the
    graph axis; the other axes, and every weight window, stay at block 0. -/
theorem idx_big : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 2) = t.val ∧ win0_10.index t (1 : Fin 2) = 0 :=
  (by decide +kernel : ∀ t : Fin grid0.N, _)
theorem idx_w : ∀ t : Fin cfg0.N, win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0 :=
  (by decide +kernel : ∀ t : Fin grid0.N, _)

/-! ### Each input block, read off its array -/

/-- Local graph `g` of the feature block at point `t` is graph `16 t + g` of the feature array. -/
theorem nf_block (c : Dev nD) (t : Fin cfg0.N) (g : Fin 16) (G' : Fin 512) (hG : G'.val = t.val * 16 + g.val) (i j : Fin 128) :
    (iblk m c 0 t : Vec Ideal S16x128x128 .f32) (ix3 g i j) = (V m c main_arg0 : S512x128x128.Idx → EReal) (ix3 G' i j) := by
  obtain ⟨e0, e1, e2, -⟩ := idx_big t
  show V m c main_arg0 (((cfg0.win 0).blk t).view.emb (ix3 g i j)) = V m c main_arg0 (ix3 G' i j)
  refine congrArg _ (funext fun a => Fin.ext ?_)
  match a with
  | ⟨0, _⟩ => show win0_0.index t (0 : Fin 3) * 16 + 1 * g.val = G'.val; rw [e0, hG]; omega
  | ⟨1, _⟩ => show win0_0.index t (1 : Fin 3) * 128 + 1 * i.val = i.val; rw [e1]; omega
  | ⟨2, _⟩ => show win0_0.index t (2 : Fin 3) * 128 + 1 * j.val = j.val; rw [e2]; omega

/-- The same for the adjacency block. -/
theorem adj_block (c : Dev nD) (t : Fin cfg0.N) (g : Fin 16) (G' : Fin 512) (hG : G'.val = t.val * 16 + g.val) (i j : Fin 128) :
    (iblk m c 1 t : Vec Ideal S16x128x128 .f32) (ix3 g i j) = (V m c main_arg1 : S512x128x128.Idx → EReal) (ix3 G' i j) := by
  obtain ⟨-, -, -, e0, e1, e2, -⟩ := idx_big t
  show V m c main_arg1 (((cfg0.win 1).blk t).view.emb (ix3 g i j)) = V m c main_arg1 (ix3 G' i j)
  refine congrArg _ (funext fun a => Fin.ext ?_)
  match a with
  | ⟨0, _⟩ => show win0_1.index t (0 : Fin 3) * 16 + 1 * g.val = G'.val; rw [e0, hG]; omega
  | ⟨1, _⟩ => show win0_1.index t (1 : Fin 3) * 128 + 1 * i.val = i.val; rw [e1]; omega
  | ⟨2, _⟩ => show win0_1.index t (2 : Fin 3) * 128 + 1 * j.val = j.val; rw [e2]; omega

/-- Every weight window's block is its whole array, at every point. -/
theorem w1_block (c : Dev nD) (t : Fin cfg0.N) : (iblk m c 2 t : Vec Ideal S128x256 .f32) = V m c main_arg2 := by
  obtain ⟨e0, e1, -⟩ := idx_w t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega
theorem b1_block (c : Dev nD) (t : Fin cfg0.N) : (iblk m c 3 t : Vec Ideal S256 .f32) = V m c main_arg3 := by
  obtain ⟨-, -, e0, -⟩ := idx_w t
  funext y
  show V m c main_arg3 (((cfg0.win 3).blk t).view.emb y) = V m c main_arg3 y
  refine congrArg _ (funext fun a => Fin.ext ?_)
  match a with
  | ⟨0, _⟩ => show win0_3.index t (0 : Fin 1) * 256 + 1 * (y 0).val = (y 0).val; rw [e0]; omega
theorem w2_block (c : Dev nD) (t : Fin cfg0.N) : (iblk m c 4 t : Vec Ideal S256x256 .f32) = V m c main_arg4 := by
  obtain ⟨-, -, -, e0, e1, -⟩ := idx_w t
  funext y
  show V m c main_arg4 (((cfg0.win 4).blk t).view.emb y) = V m c main_arg4 y
  refine congrArg _ (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega
theorem b2_block (c : Dev nD) (t : Fin cfg0.N) : (iblk m c 5 t : Vec Ideal S256 .f32) = V m c main_arg5 := by
  obtain ⟨-, -, -, -, -, e0, -⟩ := idx_w t
  funext y
  show V m c main_arg5 (((cfg0.win 5).blk t).view.emb y) = V m c main_arg5 y
  refine congrArg _ (funext fun a => Fin.ext ?_)
  match a with
  | ⟨0, _⟩ => show win0_5.index t (0 : Fin 1) * 256 + 1 * (y 0).val = (y 0).val; rw [e0]; omega
theorem w3_block (c : Dev nD) (t : Fin cfg0.N) : (iblk m c 6 t : Vec Ideal S256x256 .f32) = V m c main_arg6 := by
  obtain ⟨-, -, -, -, -, -, e0, e1, -⟩ := idx_w t
  funext y
  show V m c main_arg6 (((cfg0.win 6).blk t).view.emb y) = V m c main_arg6 y
  refine congrArg _ (funext fun a => Fin.ext ?_)
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega
theorem b3_block (c : Dev nD) (t : Fin cfg0.N) : (iblk m c 7 t : Vec Ideal S256 .f32) = V m c main_arg7 := by
  obtain ⟨-, -, -, -, -, -, -, -, e0, -⟩ := idx_w t
  funext y
  show V m c main_arg7 (((cfg0.win 7).blk t).view.emb y) = V m c main_arg7 y
  refine congrArg _ (funext fun a => Fin.ext ?_)
  match a with
  | ⟨0, _⟩ => show win0_7.index t (0 : Fin 1) * 256 + 1 * (y 0).val = (y 0).val; rw [e0]; omega
theorem wh_block (c : Dev nD) (t : Fin cfg0.N) : (iblk m c 8 t : Vec Ideal S256x1 .f32) = V m c main_arg8 := by
  obtain ⟨-, -, -, -, -, -, -, -, -, e0, e1, -⟩ := idx_w t
  funext y
  show V m c main_arg8 (((cfg0.win 8).blk t).view.emb y) = V m c main_arg8 y
  refine congrArg _ (funext fun a => Fin.ext ?_)
  match a with
  | ⟨0, _⟩ => show win0_8.index t (0 : Fin 2) * 256 + 1 * (y 0).val = (y 0).val; rw [e0]; omega
  | ⟨1, _⟩ => show win0_8.index t (1 : Fin 2) * 1 + 1 * (y 1).val = (y 1).val; rw [e1]; omega
theorem bh_block (c : Dev nD) (t : Fin cfg0.N) : (iblk m c 9 t : Vec Ideal S1 .f32) = V m c main_arg9 := by
  obtain ⟨-, -, -, -, -, -, -, -, -, -, -, e0⟩ := idx_w t
  funext y
  show V m c main_arg9 (((cfg0.win 9).blk t).view.emb y) = V m c main_arg9 y
  refine congrArg _ (funext fun a => Fin.ext ?_)
  match a with
  | ⟨0, _⟩ => show win0_9.index t (0 : Fin 1) * 1 + 1 * (y 0).val = (y 0).val; rw [e0]; omega

/-! ### What a point writes back, the cover, the array after the region -/

/-- WHAT POINT `t` WRITES BACK is block `t` of `G` of the argument arrays as the region finds them: the one store covers the
    staging buffer, every load reads its whole block, and the body's value at local graph `g` is the specification of graph
    `16 t + g`, which is the row the output block's rectangle names. -/
theorem flushed_eq (c : Dev nD) (t : Fin cfg0.N) :
    (dats m 0 c).flushed 10 t = ((cfg0.win 10).blk t).view.read (Elt Ideal) (G (V m c main_arg0) (V m c main_arg1) (V m c main_arg2) (V m c main_arg3) (V m c main_arg4) (V m c main_arg5) (V m c main_arg6) (V m c main_arg7) (V m c main_arg8) (V m c main_arg9)) := by
  show (cfg0.win 10).cut (grid0.coords t) ((dats m 0 c).after 10 t) = _
  rw [after0_10]
  unfold out0_10
  rw [View.canon_unit_zero hz2]
  simp only [View.ld_unit_zero (S := S16x128x128) hz3, View.ld_unit_zero (S := S128x256) hz2, View.ld_unit_zero (S := S256) hz1,
    View.ld_unit_zero (S := S256x256) hz2, View.ld_unit_zero (S := S256x1) hz2, View.ld_unit_zero (S := S1) hz1]
  rw [w1_block m c t, b1_block m c t, w2_block m c t, b2_block m c t, w3_block m c t, b3_block m c t, wh_block m c t, bh_block m c t]
  funext j
  obtain ⟨g, z, rfl⟩ : ∃ (g : Fin 16) (z : Fin 1), j = ix2 g z := ⟨j 0, j 1, eq_ix2 j⟩
  obtain rfl : z = 0 := Subsingleton.elim _ _
  have hN : cfg0.N = 32 := N_0
  have hG : t.val * 16 + g.val < 512 := by have := t.isLt; have := g.isLt; omega
  obtain ⟨-, -, -, -, -, -, e0, e1⟩ := idx_big t
  show k0_pay1 (F := Ideal) (k0_pay2 (F := Ideal) (iblk m c 1 t) (iblk m c 0 t) (V m c main_arg2) (V m c main_arg3) (V m c main_arg4) (V m c main_arg5))
      (k0_pay3 (F := Ideal) (V m c main_arg6)) (constant (F := Ideal) S2048x256 .f32 0x00000000#32) (V m c main_arg7) (V m c main_arg8) (V m c main_arg9)
      (ix2 g (0 : Fin 1)) = G (V m c main_arg0) (V m c main_arg1) (V m c main_arg2) (V m c main_arg3) (V m c main_arg4) (V m c main_arg5) (V m c main_arg6) (V m c main_arg7) (V m c main_arg8) (V m c main_arg9) (((cfg0.win 10).blk t).view.emb (ix2 g (0 : Fin 1)))
  refine (Layer.body_eq (iblk m c 0 t) (iblk m c 1 t) (V m c main_arg2) (V m c main_arg3) (V m c main_arg4) (V m c main_arg5) (V m c main_arg6) (V m c main_arg7) (V m c main_arg8) (V m c main_arg9) g).trans ?_
  refine (GcnSpec.ofArrays_block (V m c main_arg0) (V m c main_arg1) (iblk m c 0 t) (iblk m c 1 t) (V m c main_arg2) (V m c main_arg3) (V m c main_arg4) (V m c main_arg5) (V m c main_arg6) (V m c main_arg7) (V m c main_arg8) (V m c main_arg9) g
    ⟨t.val * 16 + g.val, hG⟩ (nf_block m c t g _ rfl) (adj_block m c t g _ rfl)).trans ?_
  unfold G
  refine congrArg (GcnSpec.ofArrays (n := 512) (V m c main_arg0) (V m c main_arg1) (V m c main_arg2) (V m c main_arg3) (V m c main_arg4) (V m c main_arg5) (V m c main_arg6) (V m c main_arg7) (V m c main_arg8) (V m c main_arg9)) (Fin.ext ?_)
  show t.val * 16 + g.val = win0_10.index t (0 : Fin 2) * 16 + 1 * g.val
  rw [e0]; omega

/-- An index of the result array is in point `t`'s block iff each coordinate is in the block's range on its axis. -/
theorem mem_blk (t : Fin cfg0.N) (i : S512x1.Idx) :
    i ∈ ((cfg0.win 10).blk t).view.set ↔ ∀ a : Fin 2, win0_10.index t a * S16x1.size a ≤ (i a).val ∧ (i a).val < win0_10.index t a * S16x1.size a + S16x1.size a := by
  show i ∈ ((View.whole main_v0).slice (win0_10.rect t)).set ↔ _
  rw [View.set_slice_whole, Rect.mem_set_unit]
  exact Iff.rfl

/-- Every one of the 32 row blocks is some point's. -/
theorem idx_onto : ∀ q : Fin 32, ∃ t : Fin cfg0.N, win0_10.index t = ![q.val, 0] :=
  (by decide +kernel : ∀ q : Fin 32, ∃ t : Fin grid0.N, win0_10.index t = ![q.val, 0])

/-- The blocks tile the array: row `r` is in the block of point `r / 16`. -/
theorem cover (i : S512x1.Idx) : ∃ t : Fin cfg0.N, (cfg0.win 10).flush t = true ∧ i ∈ ((cfg0.win 10).blk t).view.set := by
  have hi0 : (i 0).val < 512 := (i 0).isLt
  have hi1 : (i 1).val < 1 := (i 1).isLt
  obtain ⟨t, ht⟩ := idx_onto ⟨(i 0).val / 16, by omega⟩
  have q0 : win0_10.index t (0 : Fin 2) = (i 0).val / 16 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 16 ≤ (i 0).val ∧ (i 0).val < win0_10.index t (0 : Fin 2) * 16 + 16; omega
  | ⟨1, _⟩ => show win0_10.index t (1 : Fin 2) * 1 ≤ (i 1).val ∧ (i 1).val < win0_10.index t (1 : Fin 2) * 1 + 1; omega

/-- THE ARRAY after the region: `G` of the argument arrays. -/
theorem final (c : Dev nD) : (dats m 0 c).arrAt 10 cfg0.N = G (V m c main_arg0) (V m c main_arg1) (V m c main_arg2) (V m c main_arg3) (V m c main_arg4) (V m c main_arg5) (V m c main_arg6) (V m c main_arg7) (V m c main_arg8) (V m c main_arg9) :=
  (dats m 0 c).arrAt_eq_of_cover 10 (G (V m c main_arg0) (V m c main_arg1) (V m c main_arg2) (V m c main_arg3) (V m c main_arg4) (V m c main_arg5) (V m c main_arg6) (V m c main_arg7) (V m c main_arg8) (V m c main_arg9)) (fun t _ => flushed_eq m c t) cover

/-! ### The reshape after the region, and the run -/

/-- The program's result: the [512, 1] array reshaped to [512] — entry `r` is the specification of graph `r`. -/
theorem tail_eq (c : Dev nD) :
    Pipeline.afterTail₀ cfgs (dats m) 0 (V0 m) [hostOps1] c main_v1
      = (fun i : S512.Idx => GcnSpec.ofArrays (n := 512) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ⟨(i 0).val, (i 0).isLt⟩) := by
  unfold Pipeline.afterTail₀
  show StableHlo.after hostOps1 _ (Proc.devRef .tc main_v1) = _
  after_results
  rw [show Pipeline.withArrays spec0 c (V0 m c) (fun w => (dats m 0 c).arrAt w cfg0.N) (Proc.devRef .tc main_v0) = G (V m c main_arg0) (V m c main_arg1) (V m c main_arg2) (V m c main_arg3) (V m c main_arg4) (V m c main_arg5) (V m c main_arg6) (V m c main_arg7) (V m c main_arg8) (V m c main_arg9) from
    (Pipeline.withArrays_arr spec0 launch0.win.arr_inj c _ _ 10).trans (final m c)]
  funext i
  obtain ⟨g, rfl⟩ : ∃ g : Fin 512, i = ix1 g := ⟨i 0, eq_ix1 i⟩
  refine (shapeCast_apply _ shapeCasts_S512x1_S512 (ix1 g) (ix2 g (0 : Fin 1)) (by
    rw [Shape.rowMajor_val_two, Shape.rowMajor_val_one]; show g.val * 1 + 0 = g.val; omega)).trans ?_
  rfl

/-- THE KERNEL'S RUN, read: every weakly fair execution terminates with entry `r` of the result at the specification of
    graph `r` of the argument arrays, and the arguments unchanged (the generated frame run; the result is the one buffer
    the reshape after the region writes, each argument an input array no point writes back). -/
theorem run : θ_run defs (onTc (τ := τ) (main (F := Ideal))) ⟨m, fun _ => 0, ρ⟩ fun r => ∀ c : Dev nD,
      r.2.mem ((c.tc : Thread nD τ).loc main_v1)
        = (fun i : S512.Idx => GcnSpec.ofArrays (n := 512) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Hand

end
-- ==== Proof.RefValue.lean ====
/-
  The reference, graph by graph, is the specification.

  The reference applies each layer to all 512 graphs at once: a batched product of the adjacency with the features,
  a product with the weights contracting the feature axis, a broadcast bias, a maximum with a splat of zero (jax's
  outlined relu), and after three layers a sum over the node axis from zero, a division by a splat of 128, a product
  with the read-out column, a broadcast bias and a reshape from [512, 1] to [512]. Each stage read at an index
  of graph `g` is the matching stage of `GcnSpec` on graph `g`'s slices; the sums are the same sums in the same
  order, and the initial zero of the node sum is absorbed.
-/
import proofs.«114303_j41824391529182_2_alg».proof.Proof.Gen.ReferenceIdeal.Read
import proofs.«114303_j41824391529182_2_alg».proof.Proof.Spec

noncomputable section

namespace Cert.ReferenceIdeal.RefValue

open Cert.ReferenceIdeal Cert.ReferenceIdeal.Read Idealize.ShloMosaic Idealize.ShloMosaic.ValueIdx Cert.GcnSpec

/-- Two rank-3 (rank-2, rank-1) indices with the same coordinates are equal. -/
local macro "idx3" : term => `(funext fun a => Fin.ext (by match a with | ⟨0, _⟩ => rfl | ⟨1, _⟩ => rfl | ⟨2, _⟩ => rfl))
local macro "idx2" : term => `(funext fun a => Fin.ext (by match a with | ⟨0, _⟩ => rfl | ⟨1, _⟩ => rfl))
local macro "idx1" : term => `(funext fun a => Fin.ext (by match a with | ⟨0, _⟩ => rfl))

variable (x0 x1 : (⟨S512x128x128, .f32⟩ : BufTy).Contents (Elt Ideal)) (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
  (x8 : (⟨S256x1, .f32⟩ : BufTy).Contents (Elt Ideal)) (x9 : (⟨S1, .f32⟩ : BufTy).Contents (Elt Ideal)) (g : Fin 512)

/-- Graph `g`'s adjacency and features, and the weights by coordinates. -/
abbrev adjOf : Fin 128 → Fin 128 → EReal := fun i j => x1 (ix3 g i j)
abbrev nfOf : Fin 128 → Fin 128 → EReal := fun j d => x0 (ix3 g j d)
abbrev matOf {D : Nat} (w : (⟨2, ![D, 256]⟩ : Shape).Idx → EReal) : Fin D → Fin 256 → EReal := fun d h => w (ix2 d h)
abbrev rowOf (b : (⟨1, ![256]⟩ : Shape).Idx → EReal) : Fin 256 → EReal := fun h => b (ix1 h)

/-- The zero the outlined relu compares with. -/
theorem relu_zero0 (i : S512x128x256.Idx) : val_main_call0_v0 (F := Ideal) i = Ideal.ofBits .f32 0x00000000#32 := by
  rw [val_main_call0_v0_apply, val_main_call0_cst_apply]; rfl
theorem relu_zero1 (i : S512x128x256.Idx) : val_main_call1_v0 (F := Ideal) i = Ideal.ofBits .f32 0x00000000#32 := by
  rw [val_main_call1_v0_apply, val_main_call1_cst_apply]; rfl
theorem relu_zero2 (i : S512x128x256.Idx) : val_main_call2_v0 (F := Ideal) i = Ideal.ofBits .f32 0x00000000#32 := by
  rw [val_main_call2_v0_apply, val_main_call2_cst_apply]; rfl

/-! ### Layer 1 -/

theorem agg1_eq (i d : Fin 128) :
    val_main_v0 (F := Ideal) x0 x1 (ix3 g i d) = agg (adjOf x1 g) (nfOf x0 g) i d := by
  rw [val_main_v0_apply]; unfold agg
  refine Finset.sum_congr rfl fun k _ => ?_
  rw [show lidx_main_v0 (ix3 g i d) k = ix3 g i k from idx3, show ridx_main_v0 (ix3 g i d) k = ix3 g k d from idx3]

theorem dense1_eq (i : Fin 128) (h : Fin 256) :
    val_main_v5 (F := Ideal) x0 x1 x2 x3 (ix3 g i h) = dense (agg (adjOf x1 g) (nfOf x0 g)) (matOf x2) (rowOf x3) i h := by
  rw [val_main_v5_apply, val_main_v4_apply, val_main_v1_apply, val_main_v3_apply, val_main_v2_apply, relu_zero0]
  unfold dense
  simp only [Ideal.maximumf_def, Ideal.addf_def]
  refine congrArg₂ max (congrArg₂ (· + ·) (Finset.sum_congr rfl fun k _ => ?_) ?_) rfl
  · rw [show lidx_main_v1 (ix3 g i h) k = ix3 g i k from idx3, show ridx_main_v1 (ix3 g i h) k = ix2 k h from idx2, agg1_eq]
  · exact congrArg x3 idx1

/-! ### Layer 2 -/

theorem agg2_eq (i : Fin 128) (d : Fin 256) :
    val_main_v6 (F := Ideal) x0 x1 x2 x3 (ix3 g i d)
      = agg (adjOf x1 g) (dense (agg (adjOf x1 g) (nfOf x0 g)) (matOf x2) (rowOf x3)) i d := by
  rw [val_main_v6_apply]; unfold agg
  refine Finset.sum_congr rfl fun k _ => ?_
  rw [show lidx_main_v6 (ix3 g i d) k = ix3 g i k from idx3, show ridx_main_v6 (ix3 g i d) k = ix3 g k d from idx3, dense1_eq]
  rfl

theorem dense2_eq (i : Fin 128) (h : Fin 256) :
    val_main_v11 (F := Ideal) x0 x1 x2 x3 x4 x5 (ix3 g i h)
      = dense (agg (adjOf x1 g) (dense (agg (adjOf x1 g) (nfOf x0 g)) (matOf x2) (rowOf x3))) (matOf x4) (rowOf x5) i h := by
  rw [val_main_v11_apply, val_main_v10_apply, val_main_v7_apply, val_main_v9_apply, val_main_v8_apply, relu_zero1]
  unfold dense
  simp only [Ideal.maximumf_def, Ideal.addf_def]
  refine congrArg₂ max (congrArg₂ (· + ·) (Finset.sum_congr rfl fun k _ => ?_) ?_) rfl
  · rw [show lidx_main_v7 (ix3 g i h) k = ix3 g i k from idx3, show ridx_main_v7 (ix3 g i h) k = ix2 k h from idx2, agg2_eq]
    rfl
  · exact congrArg x5 idx1

/-! ### Layer 3 -/

theorem agg3_eq (i : Fin 128) (d : Fin 256) :
    val_main_v12 (F := Ideal) x0 x1 x2 x3 x4 x5 (ix3 g i d)
      = agg (adjOf x1 g) (dense (agg (adjOf x1 g) (dense (agg (adjOf x1 g) (nfOf x0 g)) (matOf x2) (rowOf x3))) (matOf x4) (rowOf x5)) i d := by
  rw [val_main_v12_apply]; unfold agg
  refine Finset.sum_congr rfl fun k _ => ?_
  rw [show lidx_main_v12 (ix3 g i d) k = ix3 g i k from idx3, show ridx_main_v12 (ix3 g i d) k = ix3 g k d from idx3, dense2_eq]
  rfl

theorem dense3_eq (i : Fin 128) (h : Fin 256) :
    val_main_v17 (F := Ideal) x0 x1 x2 x3 x4 x5 x6 x7 (ix3 g i h)
      = dense (agg (adjOf x1 g) (dense (agg (adjOf x1 g) (dense (agg (adjOf x1 g) (nfOf x0 g)) (matOf x2) (rowOf x3))) (matOf x4) (rowOf x5)))
          (matOf x6) (rowOf x7) i h := by
  rw [val_main_v17_apply, val_main_v16_apply, val_main_v13_apply, val_main_v15_apply, val_main_v14_apply, relu_zero2]
  unfold dense
  simp only [Ideal.maximumf_def, Ideal.addf_def]
  refine congrArg₂ max (congrArg₂ (· + ·) (Finset.sum_congr rfl fun k _ => ?_) ?_) rfl
  · rw [show lidx_main_v13 (ix3 g i h) k = ix3 g i k from idx3, show ridx_main_v13 (ix3 g i h) k = ix2 k h from idx2, agg3_eq]
    rfl
  · exact congrArg x7 idx1

/-! ### The mean over the nodes and the read-out -/

theorem pool_eq (h : Fin 256) :
    val_main_v20 (F := Ideal) x0 x1 x2 x3 x4 x5 x6 x7 (ix2 g h)
      = GcnSpec.pool (dense (agg (adjOf x1 g) (dense (agg (adjOf x1 g) (dense (agg (adjOf x1 g) (nfOf x0 g)) (matOf x2) (rowOf x3))) (matOf x4) (rowOf x5)))
          (matOf x6) (rowOf x7)) h := by
  rw [val_main_v20_apply, val_main_v18_apply, val_main_v19_apply, val_main_cst_apply, val_main_cst_0_apply]
  unfold GcnSpec.pool
  simp only [Ideal.hostDivf_def, Ideal.ofBits_def, Ideal.ofBits_zero_f32, zero_add]
  refine congrArg (fun s => Ideal.div s (Ideal.ofBits .f32 0x43000000#32)) (Finset.sum_congr rfl fun k _ => ?_)
  rw [show idx_main_v18 (ix2 g h) k = ix3 g k h from idx3, dense3_eq]

/-- THE REFERENCE's result at graph `g` is the specification of graph `g` of its argument arrays. -/
theorem result_eq :
    val_main_v25 (F := Ideal) x0 x1 x2 x3 x4 x5 x6 x7 x8 x9 (ix1 g)
      = ofArrays (n := 512) x0 x1 x2 x3 x4 x5 x6 x7 x8 x9 g := by
  rw [val_main_v25_apply, show idx_main_v25 (ix1 g) = ix2 g (0 : Fin 1) from
      funext fun a => Fin.ext (by match a with | ⟨0, _⟩ => exact Nat.div_one _ | ⟨1, _⟩ => rfl),
    val_main_v24_apply, val_main_v21_apply, val_main_v23_apply, val_main_v22_apply]
  unfold ofArrays gcn head
  simp only [Ideal.addf_def]
  refine congrArg₂ (· + ·) (Finset.sum_congr rfl fun k _ => ?_) (congrArg x9 idx1)
  rw [show lidx_main_v21 (ix2 g (0 : Fin 1)) k = ix2 g k from idx2, show ridx_main_v21 (ix2 g (0 : Fin 1)) k = ix2 k (0 : Fin 1) from idx2, pool_eq]

end Cert.ReferenceIdeal.RefValue

end
-- ==== Proof.lean ====
/-
  A three-layer graph convolution with mean pooling and a linear read-out, fused into one kernel over blocks of
  sixteen graphs, against the same network written layer by layer over all 512 graphs at once.

  On the extended reals the two programs compute one function: for every graph `r`, `GcnSpec.gcn` of that graph's
  adjacency and features and of the shared weights. The kernel rounds to a sixteen-bit format on the way into each
  matrix product; on the extended reals that rounding is the identity, so no law of arithmetic beyond the equality of
  the sums themselves is used, and the precondition (finite inputs) is never opened.

  * `Proof/Spec.lean`: the specification, and that graphs do not mix.
  * `Proof/KMatmul.lean`, `Proof/KBody.lean`: the kernel's body at local graph `g` of a block is the specification.
  * `Proof/KValue.lean`: from blocks to the [512, 1] array, the reshape after the region, the kernel's run.
  * `Proof/RefValue.lean`: the reference's result at graph `r` is the specification.
  The three frames are the generated frame runs (the reference's is its generated run with the result dropped); the
  idealization rewrote nothing, so `preserves` is trivial.
-/
import proofs.«114303_j41824391529182_2_alg».proof.Defs
import proofs.«114303_j41824391529182_2_alg».proof.Proof.Gen.Kernel
import proofs.«114303_j41824391529182_2_alg».proof.Proof.Gen.Kernel.Skeleton
import proofs.«114303_j41824391529182_2_alg».proof.Proof.Gen.Kernel.Launch
import proofs.«114303_j41824391529182_2_alg».proof.Proof.Gen.Kernel.Points
import proofs.«114303_j41824391529182_2_alg».proof.Proof.Gen.Kernel.Frame
import proofs.«114303_j41824391529182_2_alg».proof.Proof.Gen.KernelIdeal
import proofs.«114303_j41824391529182_2_alg».proof.Proof.Gen.KernelIdeal.Skeleton
import proofs.«114303_j41824391529182_2_alg».proof.Proof.Gen.KernelIdeal.Launch
import proofs.«114303_j41824391529182_2_alg».proof.Proof.Gen.KernelIdeal.Points
import proofs.«114303_j41824391529182_2_alg».proof.Proof.Gen.KernelIdeal.Frame
import proofs.«114303_j41824391529182_2_alg».proof.Proof.Gen.ReferenceIdeal
import proofs.«114303_j41824391529182_2_alg».proof.Proof.Gen.Pre_finite_inputs
import proofs.«114303_j41824391529182_2_alg».proof.Proof.Gen.ReferenceIdeal.Run
import proofs.«114303_j41824391529182_2_alg».proof.Proof.Gen.ReferenceIdeal.Read
import proofs.«114303_j41824391529182_2_alg».proof.Proof.KValue
import proofs.«114303_j41824391529182_2_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with entry `r` of the result at the specification of graph `r` of their (agreeing) arguments. -/
theorem algebraic : Cert.algebraic_KernelIdeal_ReferenceIdeal := by
  intro m ρ m' ρ' _ hagree
  refine ⟨fun c => (fun i : Cert.KernelIdeal.S512.Idx => Cert.GcnSpec.ofArrays (n := 512) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) ⟨(i 0).val, (i 0).isLt⟩),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  funext i
  obtain ⟨g, rfl⟩ : ∃ g : Fin 512, i = ix1 g := ⟨i 0, eq_ix1 i⟩
  exact Cert.ReferenceIdeal.RefValue.result_eq _ _ _ _ _ _ _ _ _ _ g

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
